-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x512 : Shape := ⟨3, ![64, 64, 512]⟩
abbrev S64x2048x512 : Shape := ⟨3, ![64, 2048, 512]⟩
abbrev S512x1 : Shape := ⟨2, ![512, 1]⟩
abbrev S_ : Shape := ⟨0, ![]⟩

class Facts : Prop where
  bcast_S_S64x64x512 : S_.BroadcastsInDim S64x64x512 (![] : Fin 0 → Fin S64x64x512.rank)
  reducesTo_S64x64x512_S_d0_1_2 : S64x64x512.ReducesTo [0, 1, 2] S_
  h_S_ : 0 < S_.numel
  bcast_S_S64x2048x512 : S_.BroadcastsInDim S64x2048x512 (![] : Fin 0 → Fin S64x2048x512.rank)
  reducesTo_S64x2048x512_S_d0_1_2 : S64x2048x512.ReducesTo [0, 1, 2] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S64x64x512 .f32) (main_arg1 : FVec F S64x2048x512 .f32) (main_arg2 : FVec F S512x1 .f32) : IVec S_ 1 :=
  let main_v0 : FVec F S64x64x512 .f32 := Host.absf main_arg0
  let main_cst : FVec F S_ .f32 := constant S_ .f32 0x7F800000#32
  let main_v1 : FVec F S64x64x512 .f32 := broadcastInDim S64x64x512 ![] bcast_S_S64x64x512 main_cst
  let main_v2 : IVec S64x64x512 1 := cmpf .olt main_v0 main_v1
  let main_c : IVec S_ 1 := constantI S_ 1 1#1
  let main_v3 : IVec S_ 1 := (fun x v => Host.reduce IntOp.andi x v reducesTo_S64x64x512_S_d0_1_2 h_S_) main_v2 main_c
  let main_v4 : FVec F S64x2048x512 .f32 := Host.absf main_arg1
  let main_cst_0 : FVec F S_ .f32 := constant S_ .f32 0x7F800000#32
  let main_v5 : FVec F S64x2048x512 .f32 := broadcastInDim S64x2048x512 ![] bcast_S_S64x2048x512 main_cst_0
  let main_v6 : IVec S64x2048x512 1 := cmpf .olt main_v4 main_v5
  let main_c_1 : IVec S_ 1 := constantI S_ 1 1#1
  let main_v7 : IVec S_ 1 := (fun x v => Host.reduce IntOp.andi x v reducesTo_S64x2048x512_S_d0_1_2 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S64x64x512 : Shape := ⟨3, ![64, 64, 512]⟩
abbrev S64x2048x512 : Shape := ⟨3, ![64, 2048, 512]⟩
abbrev S512x1 : Shape := ⟨2, ![512, 1]⟩
abbrev S512 : Shape := ⟨1, ![512]⟩
abbrev S1x512 : Shape := ⟨2, ![1, 512]⟩
abbrev S64x2048x1 : Shape := ⟨3, ![64, 2048, 1]⟩
abbrev S1x2048x512 : Shape := ⟨3, ![1, 2048, 512]⟩
abbrev S1x64x512 : Shape := ⟨3, ![1, 64, 512]⟩
abbrev S1x2048x1 : Shape := ⟨3, ![1, 2048, 1]⟩
abbrev S64x512 : Shape := ⟨2, ![64, 512]⟩
abbrev S2048x512 : Shape := ⟨2, ![2048, 512]⟩
abbrev S2048x64 : Shape := ⟨2, ![2048, 64]⟩
abbrev S2048 : Shape := ⟨1, ![2048]⟩
abbrev S2048x1 : Shape := ⟨2, ![2048, 1]⟩

abbrev nBuf : Space → Nat
  | .hbm => 6
  | .vmem => 7
  | .smem => 0
  | _ => 0

abbrev bufTy : (tb : Table) → Fin (tcTables nBuf tb) → BufTy
  | .hbm, ⟨0, _⟩ => ⟨S64x64x512, .f32⟩
  | .hbm, ⟨1, _⟩ => ⟨S64x2048x512, .f32⟩
  | .hbm, ⟨2, _⟩ => ⟨S512x1, .f32⟩
  | .hbm, ⟨3, _⟩ => ⟨S512, .f32⟩
  | .hbm, ⟨4, _⟩ => ⟨S1x512, .f32⟩
  | .hbm, ⟨5, _⟩ => ⟨S64x2048x1, .f32⟩
  | .local _ .vmem, ⟨0, _⟩ => ⟨S1x2048x512, .f32⟩
  | .local _ .vmem, ⟨1, _⟩ => ⟨S1x2048x512, .f32⟩
  | .local _ .vmem, ⟨2, _⟩ => ⟨S1x64x512, .f32⟩
  | .local _ .vmem, ⟨3, _⟩ => ⟨S1x64x512, .f32⟩
  | .local _ .vmem, ⟨4, _⟩ => ⟨S1x512, .f32⟩
  | .local _ .vmem, ⟨5, _⟩ => ⟨S1x2048x1, .f32⟩
  | .local _ .vmem, ⟨6, _⟩ => ⟨S1x2048x1, .f32⟩
  | _, _ => ⟨S64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x1_S512 : S512x1.ShapeCasts S512
  shapeCasts_S512_S1x512 : S512.ShapeCasts S1x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x64_S2048 : S2048x64.Reduces [1] S2048
  shapeCasts_S2048_S2048x1 : S2048.ShapeCasts S2048x1
  broadcasts_S2048x1_S2048x64 : S2048x1.Broadcasts S2048x64
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  dot_S2048x512_S64x512_S2048x64_1_1_0_0_n_n_wf : DotDims.WF S2048x512 S64x512 S2048x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x2048x512.size a
  hwx0_0 : ∀ i : grid0.Coords, EltTy.bits .f32 = 32 ∨ (Rect.block (s := S64x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S64x64x512.size a
  hwx0_1 : ∀ i : grid0.Coords, EltTy.bits .f32 = 32 ∨ (Rect.block (s := S64x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S64x2048x1.size a
  hwx0_3 : ∀ i : grid0.Coords, EltTy.bits .f32 = 32 ∨ (Rect.block (s := S64x2048x1) S1x2048x1.size (cc0_transform_3 i) (hinb0_3 i)).WholeWords (EltTy.packing .f32)

variable [Facts₀]

def dot_S2048x512_S64x512_S2048x64_1_1_0_0_n_n : DotDims S2048x512 S64x512 S2048x64 where
  lhsContracting := [1]
  rhsContracting := [1]
  lhsNonContracting := [0]
  rhsNonContracting := [0]
  lhsBatch := []
  rhsBatch := []
  wf := dot_S2048x512_S64x512_S2048x64_1_1_0_0_n_n_wf

abbrev win0_0 : Pipeline.Window sig grid0 :=
  Pipeline.Window.ofSpec (Memref.whole main_arg1) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x64x512 : Shape := ⟨3, ![64, 64, 512]⟩
abbrev S64x2048x512 : Shape := ⟨3, ![64, 2048, 512]⟩
abbrev S512x1 : Shape := ⟨2, ![512, 1]⟩
abbrev S512 : Shape := ⟨1, ![512]⟩
abbrev S1x1x512 : Shape := ⟨3, ![1, 1, 512]⟩
abbrev S64x2048x64 : Shape := ⟨3, ![64, 2048, 64]⟩
abbrev S_ : Shape := ⟨0, ![]⟩
abbrev S64x2048 : Shape := ⟨2, ![64, 2048]⟩
abbrev S64x2048x1 : Shape := ⟨3, ![64, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S64x64x512, .f32⟩
  | .hbm, ⟨1, _⟩ => ⟨S64x2048x512, .f32⟩
  | .hbm, ⟨2, _⟩ => ⟨S512x1, .f32⟩
  | .hbm, ⟨3, _⟩ => ⟨S512, .f32⟩
  | .hbm, ⟨4, _⟩ => ⟨S1x1x512, .f32⟩
  | .hbm, ⟨5, _⟩ => ⟨S64x64x512, .f32⟩
  | .hbm, ⟨6, _⟩ => ⟨S64x64x512, .f32⟩
  | .hbm, ⟨7, _⟩ => ⟨S64x2048x64, .f32⟩
  | .hbm, ⟨8, _⟩ => ⟨S_, .f32⟩
  | .hbm, ⟨9, _⟩ => ⟨S64x2048, .f32⟩
  | .hbm, ⟨10, _⟩ => ⟨S_, .f32⟩
  | .hbm, ⟨11, _⟩ => ⟨S64x2048, .f32⟩
  | .hbm, ⟨12, _⟩ => ⟨S64x2048, .f32⟩
  | .hbm, ⟨13, _⟩ => ⟨S64x2048x1, .f32⟩
  | .hbm, ⟨14, _⟩ => ⟨S64x2048x64, .f32⟩
  | .hbm, ⟨15, _⟩ => ⟨S64x2048x64, .f32⟩
  | .hbm, ⟨16, _⟩ => ⟨S64x2048x64, .f32⟩
  | .hbm, ⟨17, _⟩ => ⟨S_, .f32⟩
  | .hbm, ⟨18, _⟩ => ⟨S64x2048, .f32⟩
  | .hbm, ⟨19, _⟩ => ⟨S64x2048x1, .f32⟩
  | .hbm, ⟨20, _⟩ => ⟨S64x2048x64, .f32⟩
  | .hbm, ⟨21, _⟩ => ⟨S64x2048x64, .f32⟩
  | .hbm, ⟨22, _⟩ => ⟨S_, .f32⟩
  | .hbm, ⟨23, _⟩ => ⟨S64x2048, .f32⟩
  | .hbm, ⟨24, _⟩ => ⟨S64x2048x1, .f32⟩
  | _, _ => ⟨S64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S512x1_S512 : S512x1.ShapeCasts S512
  bcast_S512_S1x1x512_2 : S512.BroadcastsInDim S1x1x512 (![2] : Fin 1 → Fin S1x1x512.rank)
  bcast_S1x1x512_S64x64x512_0_1_2 : S1x1x512.BroadcastsInDim S64x64x512 (![0, 1, 2] : Fin 3 → Fin S64x64x512.rank)
  reducesTo_S64x2048x64_S64x2048_d2 : S64x2048x64.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x64_0_1_2 : S64x2048x1.BroadcastsInDim S64x2048x64 (![0, 1, 2] : Fin 3 → Fin S64x2048x64.rank)
  dot_S64x2048x512_S64x64x512_S64x2048x64_2_2_1_1_0_0_wf : DotDims.WF S64x2048x512 S64x64x512 S64x2048x64 [2] [2] [1] [1] [0] [0]

variable [Facts₀]

def dot_S64x2048x512_S64x64x512_S64x2048x64_2_2_1_1_0_0 : DotDims S64x2048x512 S64x64x512 S64x2048x64 where
  lhsContracting := [2]
  rhsContracting := [2]
  lhsNonContracting := [1]
  rhsNonContracting := [1]
  lhsBatch := [0]
  rhsBatch := [0]
  wf := dot_S64x2048x512_S64x64x512_S64x2048x64_2_2_1_1_0_0_wf

class Facts : Prop extends Facts₀ where

variable [Facts]
-- ==== Proof.Spec.lean ====
/-
  What both programs compute, as one function of the three argument arrays.

  For a batch entry `b`, a context row `i` and a question position `j`, the score is the inner product over the 512
  features of the context row with the question row weighted feature by feature,
      s j = ∑ d, context (b, i, d) · (question (b, j, d) · weight (d, 0)).
  Over the 64 question positions the row's maximum `M` is taken (a fold of `max` from −∞), then the exponentials
  `exp (s j − M)`, their sum `l`, the quotients `exp (s j − M) / l`, and the result at `(b, i, 0)` is the sum of the
  quotients over `j`: the total mass of the row's softmax.  Everything is read on the extended reals, with the
  operations' conventions there (`Ideal.exp`, `Ideal.div`).
-/
import Idealize.ShloMosaic.PureOps.Ideal.Laws
import Idealize.ShloMosaic.Lib.ValueIdx

noncomputable section

namespace Cert.SoftmaxMass

open Idealize.ShloMosaic Idealize.ShloMosaic.ValueIdx

/-- The inner product of a context row with a weighted question row, over the 512 features. -/
def score (c qw : Fin 512 → EReal) : EReal := ∑ d : Fin 512, c d * qw d

/-- The maximum of a row of 64 scores: the fold of `max` from −∞ (the f32 pattern of −∞, the value both programs start from). -/
def rowMax (s : Fin 64 → EReal) : EReal :=
  (Finset.univ : Finset (Fin 64)).fold max (Ideal.ofBits .f32 0xFF800000#32) s

/-- The exponential of a score shifted by the row's maximum. -/
def shiftedExp (s : Fin 64 → EReal) (j : Fin 64) : EReal := Ideal.exp (s j - rowMax s)

/-- The total mass of the softmax of a row of scores: each shifted exponential divided by their sum, summed over the row. -/
def mass (s : Fin 64 → EReal) : EReal :=
  ∑ j : Fin 64, Ideal.div (shiftedExp s j) (∑ j' : Fin 64, shiftedExp s j')

/-- The scores of context row `(b, i)` against the 64 weighted question rows of batch entry `b`. -/
def scores (q : (⟨3, ![64, 64, 512]⟩ : Shape).Idx → EReal) (ctx : (⟨3, ![64, 2048, 512]⟩ : Shape).Idx → EReal)
    (w : (⟨2, ![512, 1]⟩ : Shape).Idx → EReal) (b : Fin 64) (i : Fin 2048) (j : Fin 64) : EReal :=
  score (fun d => ctx (ix3 b i d)) (fun d => q (ix3 b j d) * w (ix2 d (0 : Fin 1)))

/-- The result array: at `(b, i, 0)` the softmax mass of the scores of context row `(b, i)`. -/
def G (q : (⟨3, ![64, 64, 512]⟩ : Shape).Idx → EReal) (ctx : (⟨3, ![64, 2048, 512]⟩ : Shape).Idx → EReal)
    (w : (⟨2, ![512, 1]⟩ : Shape).Idx → EReal) : (⟨3, ![64, 2048, 1]⟩ : Shape).Idx → EReal :=
  fun y => mass (scores q ctx w (y 0) (y 1))

end Cert.SoftmaxMass

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.Payload.lean ====
/-
  What the kernel body computes from its three loaded blocks, read at an index.

  At a grid point the body holds one batch entry: the context block `C` of 2048 rows, the question block `Q` of 64 rows
  and the weight row `W`, each with a leading unit axis.  It weights the question rows feature by feature, multiplies
  the context rows with the weighted question rows over the 512 features (a matrix product into a zero accumulator;
  the two changes of float format before it are the identity on the extended reals), and from the resulting
  2048 × 64 score matrix takes, row by row, the maximum, the exponentials of the shifted scores, their sum, the
  quotients and the quotients' sum, stored as a `[1, 2048, 1]` block.  So entry `(0, i, 0)` of the stored block is the
  softmax mass of the scores of context row `i`.
-/
import proofs.«180872_j56100862820653_1_alg».proof.Proof.Gen.KernelIdeal.Skeleton
import proofs.«180872_j56100862820653_1_alg».proof.Proof.Spec
import proofs.«180872_j56100862820653_1_alg».proof.Proof.LibRowReduce
import Idealize.ShloMosaic.Lib.ValueLayout

noncomputable section

namespace Cert.KernelIdeal.Payload

open Idealize.ShloMosaic Idealize.ShloMosaic.ValueIdx
open Cert.KernelIdeal Cert.KernelIdeal.Gen Cert.SoftmaxMass Cert.RowReduce

/-! ## From a score matrix to the stored block -/

/-- The exponentials of a score matrix's entries, each shifted by its row's maximum. -/
def expRows (X : FVec Ideal S2048x64 .f32) : FVec Ideal S2048x64 .f32 :=
  exp (subf X (broadcastTo S2048x64 (shapeCast S2048x1
    (multiReduction .maximumf [1] S2048 X 0xFF800000#32 reduces_S2048x64_S2048 (.inl rfl) rfl) shapeCasts_S2048_S2048x1)
    broadcasts_S2048x1_S2048x64))

/-- Entry `(i, j)` is the shifted exponential of score `j` of row `i`. -/
theorem expRows_apply (X : FVec Ideal S2048x64 .f32) (i : Fin 2048) (j : Fin 64) :
    expRows X (ix2 i j) = shiftedExp (fun k => X (ix2 i k)) j := by
  unfold expRows
  show Ideal.exp (X (ix2 i j) - broadcastTo S2048x64 _ broadcasts_S2048x1_S2048x64 (ix2 i j)) = _
  rw [broadcastTo_column_apply]
  exact congrArg (fun M => Ideal.exp (X (ix2 i j) - M))
    (multiReduction_maximumf_row X 0xFF800000#32 reduces_S2048x64_S2048 (.inl rfl) rfl i)

/-- The stored block of a score matrix: the quotients of the shifted exponentials by their row sums, summed along
    each row, with a unit axis on either side. -/
def massOfRows (X : FVec Ideal S2048x64 .f32) : FVec Ideal S1x2048x1 .f32 :=
  shapeCast S1x2048x1 (shapeCast S2048x1
    (multiReduction .add [1] S2048
      (divf (expRows X) (broadcastTo S2048x64 (shapeCast S2048x1
        (multiReduction .add [1] S2048 (expRows X) 0x00000000#32 reduces_S2048x64_S2048 (.inl rfl) rfl) shapeCasts_S2048_S2048x1)
        broadcasts_S2048x1_S2048x64))
      0x00000000#32 reduces_S2048x64_S2048 (.inl rfl) rfl) shapeCasts_S2048_S2048x1) shapeCasts_S2048x1_S1x2048x1

/-- Entry `(0, i, 0)` of the stored block is the softmax mass of row `i` of the score matrix. -/
theorem massOfRows_apply (X : FVec Ideal S2048x64 .f32) (u : Fin 1) (i : Fin 2048) (u' : Fin 1) :
    massOfRows X (ix3 u i u') = mass (fun k => X (ix2 i k)) := by
  unfold massOfRows mass
  rw [shapeCast_ab_1ab_apply, shapeCast_a_a1_apply]
  refine (multiReduction_add_row _ 0x00000000#32 reduces_S2048x64_S2048 (.inl rfl) rfl i).trans ?_
  refine Finset.sum_congr rfl fun j _ => ?_
  rw [divf_apply, broadcastTo_column_apply, expRows_apply]
  refine congrArg (Ideal.div _)
    ((multiReduction_add_row (expRows X) 0x00000000#32 reduces_S2048x64_S2048 (.inl rfl) rfl i).trans ?_)
  exact Finset.sum_congr rfl fun k _ => expRows_apply X i k

/-! ## The score matrix of the loaded blocks -/

/-- The body's score matrix: context rows times weighted question rows, contracted over the features. -/
def sim (Q : Vec Ideal S1x64x512 .f32) (W : Vec Ideal S1x512 .f32) (C : Vec Ideal S1x2048x512 .f32) : FVec Ideal S2048x64 .f32 :=
  matmul dot_S2048x512_S64x512_S2048x64_1_1_0_0_n_n none
    (truncf .bf16 (shapeCast S2048x512 C shapeCasts_S1x2048x512_S2048x512) bitsLt_bf16_f32)
    (truncf .bf16 (mulf (shapeCast S64x512 Q shapeCasts_S1x64x512_S64x512)
      (broadcastTo S64x512 (shapeCast S1x512 W shapeCasts_S1x512_S1x512) broadcasts_S1x512_S64x512)) bitsLt_bf16_f32)
    (constant S2048x64 .f32 0x00000000#32)

/-- The body's payload is the stored block of its score matrix. -/
theorem pay_eq (Q : Vec Ideal S1x64x512 .f32) (W : Vec Ideal S1x512 .f32) (C : Vec Ideal S1x2048x512 .f32) :
    k0_pay1 Q W C = massOfRows (sim Q W C) := rfl

/-- The product's left operand index at output `(i, j)` and feature `k`: row `i` of the context, feature `k`. -/
theorem lhs0 (y : S2048x64.Idx) (q : dot_S2048x512_S64x512_S2048x64_1_1_0_0_n_n.contr.Idx) : (dot_S2048x512_S64x512_S2048x64_1_1_0_0_n_n.lhsIdx y q 0).val = (y 0).val := by
  unfold DotDims.lhsIdx
  rw [dif_neg (show ¬(0 : Fin S2048x512.rank) ∈ dot_S2048x512_S64x512_S2048x64_1_1_0_0_n_n.lhsBatch by decide),
    dif_pos (show (0 : Fin S2048x512.rank) ∈ dot_S2048x512_S64x512_S2048x64_1_1_0_0_n_n.lhsNonContracting by decide)]
  rfl
theorem lhs1 (y : S2048x64.Idx) (q : dot_S2048x512_S64x512_S2048x64_1_1_0_0_n_n.contr.Idx) : (dot_S2048x512_S64x512_S2048x64_1_1_0_0_n_n.lhsIdx y q 1).val = (q ⟨0, by decide⟩).val :=
  dot_S2048x512_S64x512_S2048x64_1_1_0_0_n_n.lhsIdx_val_of_single rfl y q
/-- The right operand index: row `j` of the weighted questions, feature `k`. -/
theorem rhs0 (y : S2048x64.Idx) (q : dot_S2048x512_S64x512_S2048x64_1_1_0_0_n_n.contr.Idx) : (dot_S2048x512_S64x512_S2048x64_1_1_0_0_n_n.rhsIdx y q 0).val = (y 1).val := by
  unfold DotDims.rhsIdx
  rw [dif_neg (show ¬(0 : Fin S64x512.rank) ∈ dot_S2048x512_S64x512_S2048x64_1_1_0_0_n_n.rhsBatch by decide),
    dif_pos (show (0 : Fin S64x512.rank) ∈ dot_S2048x512_S64x512_S2048x64_1_1_0_0_n_n.rhsNonContracting by decide)]
  rfl
theorem rhs1 (y : S2048x64.Idx) (q : dot_S2048x512_S64x512_S2048x64_1_1_0_0_n_n.contr.Idx) : (dot_S2048x512_S64x512_S2048x64_1_1_0_0_n_n.rhsIdx y q 1).val = (q ⟨0, by decide⟩).val :=
  dot_S2048x512_S64x512_S2048x64_1_1_0_0_n_n.rhsIdx_val_of_single rfl y q

/-- Entry `(i, j)` of the score matrix: the inner product of context row `i` with weighted question row `j`. -/
theorem sim_apply (Q : Vec Ideal S1x64x512 .f32) (W : Vec Ideal S1x512 .f32) (C : Vec Ideal S1x2048x512 .f32)
    (i : Fin 2048) (j : Fin 64) :
    sim Q W C (ix2 i j)
      = score (fun d => C (ix3 (0 : Fin 1) i d)) (fun d => Q (ix3 (0 : Fin 1) j d) * W (ix2 (0 : Fin 1) d)) := by
  unfold sim score
  simp only [matmul]
  rw [Ideal.matmul_constant_zero_apply, ← Equiv.sum_comp (contrEquiv1 dot_S2048x512_S64x512_S2048x64_1_1_0_0_n_n 512 rfl rfl).symm]
  refine Finset.sum_congr rfl fun k _ => ?_
  have hk := contrEquiv1_symm_val dot_S2048x512_S64x512_S2048x64_1_1_0_0_n_n 512 rfl rfl k
  have el : dot_S2048x512_S64x512_S2048x64_1_1_0_0_n_n.lhsIdx (ix2 i j) ((contrEquiv1 dot_S2048x512_S64x512_S2048x64_1_1_0_0_n_n 512 rfl rfl).symm k) = ix2 i k :=
    funext fun a => Fin.ext (by
      match a with
      | ⟨0, _⟩ => exact lhs0 _ _
      | ⟨1, _⟩ => exact (lhs1 _ _).trans hk)
  have er : dot_S2048x512_S64x512_S2048x64_1_1_0_0_n_n.rhsIdx (ix2 i j) ((contrEquiv1 dot_S2048x512_S64x512_S2048x64_1_1_0_0_n_n 512 rfl rfl).symm k) = ix2 j k :=
    funext fun a => Fin.ext (by
      match a with
      | ⟨0, _⟩ => exact rhs0 _ _
      | ⟨1, _⟩ => exact (rhs1 _ _).trans hk)
  rw [el, er]
  show shapeCast S2048x512 C shapeCasts_S1x2048x512_S2048x512 (ix2 i k)
      * (shapeCast S64x512 Q shapeCasts_S1x64x512_S64x512 (ix2 j k)
        * broadcastTo S64x512 (shapeCast S1x512 W shapeCasts_S1x512_S1x512) broadcasts_S1x512_S64x512 (ix2 j k)) = _
  rw [shapeCast_1ab_ab_apply, shapeCast_1ab_ab_apply, broadcastTo_1b_ab_apply, shapeCast_self]

/-- So entry `(0, i, 0)` of the body's payload is the softmax mass of the scores of context row `i` of the block. -/
theorem pay_apply (Q : Vec Ideal S1x64x512 .f32) (W : Vec Ideal S1x512 .f32) (C : Vec Ideal S1x2048x512 .f32)
    (u : Fin 1) (i : Fin 2048) (u' : Fin 1) :
    k0_pay1 Q W C (ix3 u i u')
      = mass (fun j => score (fun d => C (ix3 (0 : Fin 1) i d)) (fun d => Q (ix3 (0 : Fin 1) j d) * W (ix2 (0 : Fin 1) d))) := by
  rw [pay_eq, massOfRows_apply]
  simp only [sim_apply]

end Cert.KernelIdeal.Payload

end
-- ==== Proof.KernelValue.lean ====
/-
  The kernel's result array, after the run, is the specification `G` of the three argument arrays.

  The grid has 64 points, one per batch entry.  At point `t` the context window's block is batch entry `t` of the
  context array, the question window's block is batch entry `t` of the question array, the weight window's block is
  the whole weight row, and the output window's block is batch entry `t` of the result array: every window's block
  index is `(t, 0, 0)` (or `(0, 0)` for the weight row), decided once over the grid.  The weight row the kernel sees
  is the `[512, 1]` weight argument reshaped on the host to `[512]` and then to `[1, 512]`: entry `(0, d)` of the row is
  entry `(d, 0)` of the argument.  So what point `t` writes back is block `t` of `G`; the 64 blocks cover the result
  array (index `(b, i, 0)` lies in block `b`), hence the array ends holding `G`.
-/
import proofs.«180872_j56100862820653_1_alg».proof.Proof.Gen.KernelIdeal.Value
import proofs.«180872_j56100862820653_1_alg».proof.Proof.Payload
import Idealize.ShloMosaic.Lib.Pipeline.Value
import Idealize.ShloMosaic.Lib.StableHlo.Run
import Idealize.ShloMosaic.Lib.Tactic

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Payload Cert.SoftmaxMass

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The specification of the three argument arrays as core `c` holds them at launch. -/
abbrev Gm (c : Dev nD) : Buf (Elt Ideal) ((c : Thread nD τ).loc main_v2) :=
  G (m ((c : Thread nD τ).loc main_arg0)) (m ((c : Thread nD τ).loc main_arg1)) (m ((c : Thread nD τ).loc main_arg2))

/-! ## The windows' block indices over the grid -/

/-- At point `t` the context, question and output windows sit at block `(t, 0, 0)`, the weight window at `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The input blocks as entries of the argument arrays -/

/-- The context block at point `t` is batch entry `t` of the context argument. -/
theorem ctxBlock_apply (c : Dev nD) (t : Fin cfg0.N) (x : S1x2048x512.Idx) (k : S64x2048x512.Idx)
    (hk0 : (k 0).val = t.val) (hk1 : (k 1).val = (x 1).val) (hk2 : (k 2).val = (x 2).val) :
    (iblk m c 0 t : Vec Ideal S1x2048x512 .f32) x
      = (m ((c : Thread nD τ).loc main_arg1) : S64x2048x512.Idx → Elt Ideal .f32) k := by
  obtain ⟨h0, h1, h2, -⟩ := idx_facts t
  have hx0 : (x 0).val < 1 := (x 0).isLt
  unfold iblk
  rw [View.read_apply]
  show V m c main_arg1 _ = _
  rw [V_main_arg1]
  refine congrArg _ (funext fun a => Fin.ext ?_)
  match a with
  | ⟨0, _⟩ => show win0_0.index t 0 * 1 + 1 * (x 0).val = (k 0).val; omega
  | ⟨1, _⟩ => show win0_0.index t 1 * 2048 + 1 * (x 1).val = (k 1).val; omega
  | ⟨2, _⟩ => show win0_0.index t 2 * 512 + 1 * (x 2).val = (k 2).val; omega

/-- The question block at point `t` is batch entry `t` of the question argument. -/
theorem questionBlock_apply (c : Dev nD) (t : Fin cfg0.N) (x : S1x64x512.Idx) (k : S64x64x512.Idx)
    (hk0 : (k 0).val = t.val) (hk1 : (k 1).val = (x 1).val) (hk2 : (k 2).val = (x 2).val) :
    (iblk m c 1 t : Vec Ideal S1x64x512 .f32) x
      = (m ((c : Thread nD τ).loc main_arg0) : S64x64x512.Idx → Elt Ideal .f32) k := by
  obtain ⟨-, -, -, h0, h1, h2, -⟩ := idx_facts t
  have hx0 : (x 0).val < 1 := (x 0).isLt
  unfold iblk
  rw [View.read_apply]
  show V m c main_arg0 _ = _
  rw [V_main_arg0]
  refine congrArg _ (funext fun a => Fin.ext ?_)
  match a with
  | ⟨0, _⟩ => show win0_1.index t 0 * 1 + 1 * (x 0).val = (k 0).val; omega
  | ⟨1, _⟩ => show win0_1.index t 1 * 64 + 1 * (x 1).val = (k 1).val; omega
  | ⟨2, _⟩ => show win0_1.index t 2 * 512 + 1 * (x 2).val = (k 2).val; omega

/-- The weight row as the region finds it: the weight argument reshaped to a vector and then to one row. -/
theorem weightRow_eq (c : Dev nD) :
    (V m c main_v1 : S1x512.Idx → EReal)
      = shapeCast S1x512 (shapeCast S512 (m ((c : Thread nD τ).loc main_arg2)) shapeCasts_S512x1_S512) shapeCasts_S512_S1x512 := by
  dsimp only [V, hostOps0]
  after_results
  rfl

/-- The weight block at any point is that row: entry `(0, d)` is entry `(d, 0)` of the weight argument. -/
theorem weightBlock_apply (c : Dev nD) (t : Fin cfg0.N) (x : S1x512.Idx) (k : S512x1.Idx) (hk : (k 0).val = (x 1).val) :
    (iblk m c 2 t : Vec Ideal S1x512 .f32) x = (m ((c : Thread nD τ).loc main_arg2) : S512x1.Idx → Elt Ideal .f32) k := by
  obtain ⟨-, -, -, -, -, -, h0, h1, -⟩ := idx_facts t
  have hx0 : (x 0).val < 1 := (x 0).isLt
  have hx1 : (x 1).val < 512 := (x 1).isLt
  have hk1 : (k 1).val < 1 := (k 1).isLt
  unfold iblk
  rw [View.read_apply]
  show V m c main_v1 _ = _
  rw [weightRow_eq]
  refine (shapeCast_apply _ shapeCasts_S512_S1x512 _ (ix1 (⟨(x 1).val, hx1⟩ : Fin 512)) ?_).trans
    (shapeCast_apply _ shapeCasts_S512x1_S512 _ k ?_)
  · rw [Shape.rowMajor_val_one, Shape.rowMajor_val_two]
    show (x 1).val = (win0_2.index t 0 * 1 + 1 * (x 0).val) * 512 + (win0_2.index t 1 * 512 + 1 * (x 1).val)
    omega
  · rw [Shape.rowMajor_val_two, Shape.rowMajor_val_one]
    show (k 0).val * 1 + (k 1).val = (x 1).val
    omega

/-! ## One block of the result -/

/-- Blocks that are batch entry `b` of the argument arrays give, through the body, batch entry `b` of `G`. -/
theorem block_eq (q : (⟨3, ![64, 64, 512]⟩ : Shape).Idx → EReal) (ctx : (⟨3, ![64, 2048, 512]⟩ : Shape).Idx → EReal)
    (w : (⟨2, ![512, 1]⟩ : Shape).Idx → EReal)
    (Q : Vec Ideal S1x64x512 .f32) (W : Vec Ideal S1x512 .f32) (C : Vec Ideal S1x2048x512 .f32) (b : Fin 64)
    (hQ : ∀ (j : Fin 64) (d : Fin 512), Q (ix3 (0 : Fin 1) j d) = q (ix3 b j d))
    (hW : ∀ d : Fin 512, W (ix2 (0 : Fin 1) d) = w (ix2 d (0 : Fin 1)))
    (hC : ∀ (i : Fin 2048) (d : Fin 512), C (ix3 (0 : Fin 1) i d) = ctx (ix3 b i d))
    (y : S1x2048x1.Idx) (z : S64x2048x1.Idx) (hz0 : (z 0).val = b.val) (hz1 : (z 1).val = (y 1).val) :
    k0_pay1 Q W C y = G q ctx w z := by
  obtain ⟨u, i, u', rfl⟩ : ∃ (u : Fin 1) (i : Fin 2048) (u' : Fin 1), y = ix3 u i u' := ⟨y 0, y 1, y 2, eq_ix3 y⟩
  obtain ⟨zb, zi, zu, rfl⟩ : ∃ (zb : Fin 64) (zi : Fin 2048) (zu : Fin 1), z = ix3 zb zi zu := ⟨z 0, z 1, z 2, eq_ix3 z⟩
  have e0 : zb = b := Fin.ext hz0
  have e1 : zi = i := Fin.ext hz1
  subst e0 e1
  rw [pay_apply]
  show _ = mass (scores q ctx w zb zi)
  unfold scores
  simp only [hQ, hW, hC]

/-! ## What a point writes back, the cover, the array -/

/-- What point `t` writes back is block `t` of `G` of the argument arrays. -/
theorem flushed_eq (c : Dev nD) (t : Fin cfg0.N) :
    (dats m 0 c).flushed 3 t = ((cfg0.win 3).blk t).view.read (Elt Ideal) (Gm m c) := by
  rw [Value.flushed3]
  unfold out0_3
  rw [View.canon_unit_zero hz3]
  simp only [View.ld_unit_zero (S := S1x64x512) hz3, View.ld_unit_zero (S := S1x512) hz2,
    View.ld_unit_zero (S := S1x2048x512) hz3]
  obtain ⟨-, -, -, -, -, -, -, -, h0, h1, h2⟩ := idx_facts t
  have ht : t.val < 64 := lt_of_lt_of_eq t.isLt N_0
  funext y
  show k0_pay1 (iblk m c 1 t) (iblk m c 2 t) (iblk m c 0 t) y = Gm m c (((cfg0.win 3).blk t).view.emb y)
  refine block_eq _ _ _ (iblk m c 1 t) (iblk m c 2 t) (iblk m c 0 t) ⟨t.val, ht⟩
    (fun j d => questionBlock_apply m c t _ _ rfl rfl rfl)
    (fun d => weightBlock_apply m c t _ _ rfl)
    (fun i d => ctxBlock_apply m c t _ _ rfl rfl rfl) y _ ?_ ?_
  · show win0_3.index t 0 * 1 + 1 * (y 0).val = t.val
    have hy0 : (y 0).val < 1 := (y 0).isLt
    omega
  · show win0_3.index t 1 * 2048 + 1 * (y 1).val = (y 1).val
    omega

/-- An index of the result array is in point `t`'s block iff each coordinate is in the block's range on its axis. -/
theorem mem_blk (t : Fin cfg0.N) (i : S64x2048x1.Idx) :
    i ∈ ((cfg0.win 3).blk t).view.set ↔ ∀ a : Fin 3, win0_3.index t a * S1x2048x1.size a ≤ (i a).val
      ∧ (i a).val < win0_3.index t a * S1x2048x1.size a + S1x2048x1.size a := by
  show i ∈ ((View.whole main_v2).slice (win0_3.rect t)).set ↔ _
  rw [View.set_slice_whole, Rect.mem_set_unit]
  exact Iff.rfl

/-- Every index `(b, i, 0)` of the result array lies in the block of point `b`, which writes back. -/
theorem cover (i : S64x2048x1.Idx) :
    ∃ t : Fin cfg0.N, (cfg0.win 3).flush t = true ∧ i ∈ ((cfg0.win 3).blk t).view.set := by
  have hN : cfg0.N = 64 := N_0
  have i0 : (i 0).val < 64 := (i 0).isLt
  have i1 : (i 1).val < 2048 := (i 1).isLt
  have i2 : (i 2).val < 1 := (i 2).isLt
  obtain ⟨t, ht⟩ : ∃ t : Fin cfg0.N, t.val = (i 0).val := ⟨⟨(i 0).val, by rw [hN]; exact i0⟩, rfl⟩
  obtain ⟨-, -, -, -, -, -, -, -, h0, h1, h2⟩ := idx_facts t
  refine ⟨t, flush0_3 t, ?_⟩
  rw [mem_blk]
  intro a
  match a with
  | ⟨0, _⟩ => show win0_3.index t 0 * 1 ≤ (i 0).val ∧ (i 0).val < win0_3.index t 0 * 1 + 1; omega
  | ⟨1, _⟩ => show win0_3.index t 1 * 2048 ≤ (i 1).val ∧ (i 1).val < win0_3.index t 1 * 2048 + 2048; omega
  | ⟨2, _⟩ => show win0_3.index t 2 * 1 ≤ (i 2).val ∧ (i 2).val < win0_3.index t 2 * 1 + 1; omega

/-- So the result array ends holding `G` of the argument arrays. -/
theorem final (c : Dev nD) : (dats m 0 c).arrAt 3 cfg0.N = Gm m c :=
  (dats m 0 c).arrAt_eq_of_cover 3 (Gm m c) (fun t _ => flushed_eq m c t) cover

/-- The kernel's run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v2) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefValue.lean ====
/-
  The reference program's result, stage by stage, is the specification `G`.

  The reference weights every question row by the weight vector (broadcast over batch entries and positions), takes
  for each batch entry the product of the context rows with the weighted question rows over the 512 features, and
  then, along the 64 question positions: the maximum (a fold from −∞, followed by one more `max` with −∞, which changes
  nothing), the exponentials of the shifted scores, their sum (from 0), the quotients, and the quotients' sum (from 0),
  kept with a trailing unit axis.  Each stage is read at explicit coordinates `(b, i, j)`; the index functions of the
  layout stages are identified with the coordinates once each.
-/
import proofs.«180872_j56100862820653_1_alg».proof.Proof.Gen.ReferenceIdeal.Read
import proofs.«180872_j56100862820653_1_alg».proof.Proof.Spec
import proofs.«180872_j56100862820653_1_alg».proof.Proof.LibRowReduce

noncomputable section

namespace Cert.ReferenceIdeal.RefValue

open Idealize.ShloMosaic Idealize.ShloMosaic.ValueIdx
open Cert.ReferenceIdeal Cert.ReferenceIdeal.Gen Cert.ReferenceIdeal.Read Cert.SoftmaxMass Cert.RowReduce

variable (x0 : (⟨S64x64x512, .f32⟩ : BufTy).Contents (Elt Ideal)) (x1 : (⟨S64x2048x512, .f32⟩ : BufTy).Contents (Elt Ideal))
  (x2 : (⟨S512x1, .f32⟩ : BufTy).Contents (Elt Ideal))

/-- The weighted question array at `(b, j, d)`: the question's entry times the weight of feature `d`. -/
theorem weighted_apply (b : Fin 64) (j : Fin 64) (d : Fin 512) :
    val_main_v3 (F := Ideal) x0 x2 (ix3 b j d) = x0 (ix3 b j d) * x2 (ix2 d (0 : Fin 1)) := by
  have e : idx_main_v0 (idx_main_v1 (idx_main_v2 (ix3 b j d))) = ix2 d (0 : Fin 1) :=
    funext fun a => Fin.ext (by
      match a with
      | ⟨0, _⟩ => exact Nat.div_one _
      | ⟨1, _⟩ => rfl)
  rw [val_main_v3_apply, val_main_v2_apply, val_main_v1_apply, val_main_v0_apply, e]
  rfl

/-- The batched product at `(b, i, j)` is the score of context row `(b, i)` against weighted question row `(b, j)`. -/
theorem scores_apply (b : Fin 64) (i : Fin 2048) (j : Fin 64) :
    val_main_v4 (F := Ideal) x0 x1 x2 (ix3 b i j) = scores x0 x1 x2 b i j := by
  rw [val_main_v4_apply]
  unfold scores score
  refine Finset.sum_congr rfl fun d _ => ?_
  have el : lidx_main_v4 (ix3 b i j) d = ix3 b i d :=
    funext fun a => Fin.ext (by match a with | ⟨0, _⟩ => rfl | ⟨1, _⟩ => rfl | ⟨2, _⟩ => rfl)
  have er : ridx_main_v4 (ix3 b i j) d = ix3 b j d :=
    funext fun a => Fin.ext (by match a with | ⟨0, _⟩ => rfl | ⟨1, _⟩ => rfl | ⟨2, _⟩ => rfl)
  rw [el, er, weighted_apply]

/-- The maximum over the question positions, after the extra `max` with −∞: the row maximum of the scores.
    The fold already starts from −∞, so it is at least −∞ and the outer `max` returns it. -/
theorem rowMax_apply (b : Fin 64) (i : Fin 2048) :
    val_main_v7 (F := Ideal) x0 x1 x2 (ix2 b i) = rowMax (scores x0 x1 x2 b i) := by
  have hs : (fun k : Fin 64 => val_main_v4 (F := Ideal) x0 x1 x2 (ix3 b i k)) = scores x0 x1 x2 b i :=
    funext fun k => scores_apply x0 x1 x2 b i k
  rw [val_main_v7_apply, val_main_v6_apply, val_main_cst_0_apply]
  unfold val_main_v5
  rw [hostReduce_maximumf_last3 (val_main_v4 (F := Ideal) x0 x1 x2) (val_main_cst (F := Ideal))
    reducesTo_S64x2048x64_S64x2048_d2 (by decide) h_S_ b i, hs, val_main_cst_apply]
  exact max_eq_right ((Finset.le_fold_max _).mpr (Or.inl le_rfl))

/-- The exponential stage at `(b, i, j)`. -/
theorem shiftedExp_apply (b : Fin 64) (i : Fin 2048) (j : Fin 64) :
    val_main_v11 (F := Ideal) x0 x1 x2 (ix3 b i j) = shiftedExp (scores x0 x1 x2 b i) j := by
  have e : idx_main_v8 (idx_main_v9 (ix3 b i j)) = ix2 b i :=
    funext fun a => Fin.ext (by match a with | ⟨0, _⟩ => rfl | ⟨1, _⟩ => rfl)
  rw [val_main_v11_apply, val_main_v10_apply, val_main_v9_apply, val_main_v8_apply, e, rowMax_apply, scores_apply]
  rfl

/-- The sum of the exponentials along the question positions (the starting value is 0). -/
theorem expSum_apply (b : Fin 64) (i : Fin 2048) :
    val_main_v12 (F := Ideal) x0 x1 x2 (ix2 b i) = ∑ j : Fin 64, shiftedExp (scores x0 x1 x2 b i) j := by
  rw [val_main_v12_apply, val_main_cst_1_apply]
  show Ideal.ofBits .f32 0x00000000#32 + _ = _
  rw [Ideal.ofBits_zero_f32, zero_add]
  refine Finset.sum_congr rfl fun k _ => ?_
  have e : idx_main_v12 (ix2 b i) k = ix3 b i k :=
    funext fun a => Fin.ext (by match a with | ⟨0, _⟩ => rfl | ⟨1, _⟩ => rfl | ⟨2, _⟩ => rfl)
  rw [e]
  exact shiftedExp_apply x0 x1 x2 b i k

/-- The quotient stage at `(b, i, j)`. -/
theorem quotient_apply (b : Fin 64) (i : Fin 2048) (j : Fin 64) :
    val_main_v15 (F := Ideal) x0 x1 x2 (ix3 b i j)
      = Ideal.div (shiftedExp (scores x0 x1 x2 b i) j) (∑ j' : Fin 64, shiftedExp (scores x0 x1 x2 b i) j') := by
  have e : idx_main_v13 (idx_main_v14 (ix3 b i j)) = ix2 b i :=
    funext fun a => Fin.ext (by match a with | ⟨0, _⟩ => rfl | ⟨1, _⟩ => rfl)
  rw [val_main_v15_apply, val_main_v14_apply, val_main_v13_apply, e, expSum_apply, shiftedExp_apply]
  rfl

/-- The result at an index is the specification there. -/
theorem result_apply (y : S64x2048x1.Idx) : val_main_v17 (F := Ideal) x0 x1 x2 y = G x0 x1 x2 y := by
  obtain ⟨b, i, u, rfl⟩ : ∃ (b : Fin 64) (i : Fin 2048) (u : Fin 1), y = ix3 b i u := ⟨y 0, y 1, y 2, eq_ix3 y⟩
  have e : idx_main_v17 (ix3 b i u) = ix2 b i :=
    funext fun a => Fin.ext (by match a with | ⟨0, _⟩ => rfl | ⟨1, _⟩ => rfl)
  rw [val_main_v17_apply, e, val_main_v16_apply, val_main_cst_2_apply]
  show Ideal.ofBits .f32 0x00000000#32 + _ = _
  rw [Ideal.ofBits_zero_f32, zero_add]
  show _ = mass (scores x0 x1 x2 b i)
  unfold mass
  refine Finset.sum_congr rfl fun k _ => ?_
  have e' : idx_main_v16 (ix2 b i) k = ix3 b i k :=
    funext fun a => Fin.ext (by match a with | ⟨0, _⟩ => rfl | ⟨1, _⟩ => rfl | ⟨2, _⟩ => rfl)
  rw [e']
  exact quotient_apply x0 x1 x2 b i k

/-- The reference's result array is the specification of its three arguments. -/
theorem result_eq : val_main_v17 (F := Ideal) x0 x1 x2 = G x0 x1 x2 := funext (result_apply x0 x1 x2)

end Cert.ReferenceIdeal.RefValue

end
-- ==== Proof.lean ====
/-
  The kernel and its reference compute one function of the question, context and weight arrays.

  For batch entry `b` and context row `i`, both programs form the 64 scores
      s j = ∑ d, context (b, i, d) · (question (b, j, d) · weight (d, 0)),
  take the row's maximum `M` from −∞, the exponentials `exp (s j − M)`, their sum `l`, and return at `(b, i, 0)` the sum
  over `j` of `exp (s j − M) / l` (Proof/Spec.lean, `G`).  The kernel does it one batch entry per grid point, the
  product as a matrix product of the point's blocks after two changes of float format that are the identity on the
  extended reals, the reductions along the lanes of the 2048 × 64 score matrix (Proof/Payload.lean), and the 64 written
  blocks fill the result array (Proof/KernelValue.lean).  The reference does it on whole arrays, with a batched
  product and reductions over the last axis, and one extra `max` with −∞ that changes nothing (Proof/RefValue.lean).
  Both read the same products, maxima, exponentials, quotients and sums in the same positions, so the two results are
  equal term by term.  The only laws used are `0 + x = x` (a sum's starting value, the product's zero accumulator),
  `max (−∞) x = x` for an `x` that is itself a fold of `max` from −∞, and the renaming of a sum's index along a
  bijection; all three hold at the infinities, so the precondition that the inputs are finite is not used.

  The three programs run and leave their arguments unchanged: for the two kernels this is the generated frame, for
  the reference its generated run with the result dropped.  The idealized kernel is the kernel's text read on the
  extended reals with no rewrite applied, so there is nothing to preserve.
-/
import proofs.«180872_j56100862820653_1_alg».proof.Defs
import proofs.«180872_j56100862820653_1_alg».proof.Proof.Gen.Kernel
import proofs.«180872_j56100862820653_1_alg».proof.Proof.Gen.Kernel.Frame
import proofs.«180872_j56100862820653_1_alg».proof.Proof.Gen.KernelIdeal
import proofs.«180872_j56100862820653_1_alg».proof.Proof.Gen.KernelIdeal.Frame
import proofs.«180872_j56100862820653_1_alg».proof.Proof.Gen.KernelIdeal.Value
import proofs.«180872_j56100862820653_1_alg».proof.Proof.Gen.ReferenceIdeal
import proofs.«180872_j56100862820653_1_alg».proof.Proof.Gen.ReferenceIdeal.Run
import proofs.«180872_j56100862820653_1_alg».proof.Proof.Gen.ReferenceIdeal.Read
import proofs.«180872_j56100862820653_1_alg».proof.Proof.Gen.Pre_finite_inputs
import proofs.«180872_j56100862820653_1_alg».proof.Proof.KernelValue
import proofs.«180872_j56100862820653_1_alg».proof.Proof.RefValue
import Idealize.ShloMosaic.Adequacy
import Idealize.ShloMosaic.Init

noncomputable section

namespace Cert.Proof

open Idealize.ShloMosaic Idealize.ShloMosaic.TcCoe Idealize.SL.Sem

/-- The kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at `G` of the arguments. -/
theorem algebraic : Cert.algebraic_KernelIdeal_ReferenceIdeal := by
  intro m ρ m' ρ' _ hagree
  refine ⟨fun c => Cert.KernelIdeal.KernelValue.Gm m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
